-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8192x2048 : Shape := ⟨2, ![8192, 2048]⟩
abbrev S_ : Shape := ⟨0, ![]⟩
abbrev S8192x16384 : Shape := ⟨2, ![8192, 16384]⟩
abbrev S8192 : Shape := ⟨1, ![8192]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  reducesTo_S8192x16384_S8192_d1 : S8192x16384.ReducesTo [1] S8192
  bcast_S_S8192 : S_.BroadcastsInDim S8192 (![] : Fin 0 → Fin S8192.rank)
  reducesTo_S8192_S_d0 : S8192.ReducesTo [0] S_
  dot_S8192x2048_S16384x2048_S8192x16384_1_1_0_0_n_n_wf : DotDims.WF S8192x2048 S16384x2048 S8192x16384 [1] [1] [0] [0] [] []

variable [Facts]

def dot_S8192x2048_S16384x2048_S8192x16384_1_1_0_0_n_n : DotDims S8192x2048 S16384x2048 S8192x16384 where
  lhsContracting := [1]
  rhsContracting := [1]
  lhsNonContracting := [0]
  rhsNonContracting := [0]
  lhsBatch := []
  rhsBatch := []
  wf := dot_S8192x2048_S16384x2048_S8192x16384_1_1_0_0_n_n_wf
def fn {F : FTy → Type} [FloatOps F] (main_arg0 : FVec F S16384x2048 .f32) (main_arg1 : FVec F S8192x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x16384 .f32 := (fun l r => Host.dotGeneral dot_S8192x2048_S16384x2048_S8192x16384_1_1_0_0_n_n none l r) main_arg1 main_arg0
  let main_v10 : FVec F S8192x16384 .f32 := mulf main_v9 main_v9
  let main_cst_2 : FVec F S_ .f32 := constant S_ .f32 0x00000000#32
  let main_v11 : FVec F S8192 .f32 := (fun x v => Host.reduceAdd x v reducesTo_S8192x16384_S8192_d1 h_S_) main_v10 main_cst_2
  let main_cst_3 : FVec F S_ .f32 := constant S_ .f32 0x00000000#32
  let main_v12 : FVec F S8192 .f32 := broadcastInDim S8192 ![] bcast_S_S8192 main_cst_3
  let main_v13 : IVec S8192 1 := cmpf .une main_v11 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S16384x2048 : Shape := ⟨2, ![16384, 2048]⟩
abbrev S8192x2048 : Shape := ⟨2, ![8192, 2048]⟩
abbrev S512x2048 : Shape := ⟨2, ![512, 2048]⟩
abbrev S512x1 : Shape := ⟨2, ![512, 1]⟩
abbrev S512x512 : Shape := ⟨2, ![512, 512]⟩
abbrev S512 : Shape := ⟨1, ![512]⟩

abbrev nBuf : Space → Nat
  | .hbm => 3
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S8192x2048, .f32⟩
  | .hbm, ⟨2, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v20 : BitVec 1 := Scalar.cmpi .eq arg1 c31_i32
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x512_S512 : S512x512.Reduces [1] S512
  shapeCasts_S512_S512x1 : S512.ShapeCasts S512x1
  broadcasts_S512x1_S512x2048 : S512x1.Broadcasts S512x2048
  dot_S512x2048_S512x2048_S512x512_1_1_0_0_n_n_wf : DotDims.WF S512x2048 S512x2048 S512x512 [1] [1] [0] [0] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x2048 : Shape := ⟨2, ![16384, 2048]⟩
abbrev S8192x2048 : Shape := ⟨2, ![8192, 2048]⟩
abbrev S8192x16384 : Shape := ⟨2, ![8192, 16384]⟩
abbrev S_ : Shape := ⟨0, ![]⟩
abbrev S8192 : Shape := ⟨1, ![8192]⟩
abbrev S8192x1 : Shape := ⟨2, ![8192, 1]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8192x2048, .f32⟩
  | .hbm, ⟨2, _⟩ => ⟨S8192x16384, .f32⟩
  | .hbm, ⟨3, _⟩ => ⟨S8192x16384, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x16384, .f32⟩
  | .hbm, ⟨8, _⟩ => ⟨S8192x16384, .f32⟩
  | .hbm, ⟨9, _⟩ => ⟨S8192x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  reducesTo_S8192x16384_S8192_d1 : S8192x16384.ReducesTo [1] S8192
  h_S_ : 0 < S_.numel
  bcast_S8192_S8192x1_0 : S8192.BroadcastsInDim S8192x1 (![0] : Fin 1 → Fin S8192x1.rank)
  bcast_S8192x1_S8192x16384_0_1 : S8192x1.BroadcastsInDim S8192x16384 (![0, 1] : Fin 2 → Fin S8192x16384.rank)
  dot_S8192x2048_S16384x2048_S8192x16384_1_1_0_0_n_n_wf : DotDims.WF S8192x2048 S16384x2048 S8192x16384 [1] [1] [0] [0] [] []
  dot_S8192x16384_S16384x2048_S8192x2048_1_0_0_1_n_n_wf : DotDims.WF S8192x16384 S16384x2048 S8192x2048 [1] [0] [0] [1] [] []

variable [Facts₀]

def dot_S8192x2048_S16384x2048_S8192x16384_1_1_0_0_n_n : DotDims S8192x2048 S16384x2048 S8192x16384 where
  lhsContracting := [1]
  rhsContracting := [1]
  lhsNonContracting := [0]
  rhsNonContracting := [0]
  lhsBatch := []
  rhsBatch := []
  wf := dot_S8192x2048_S16384x2048_S8192x16384_1_1_0_0_n_n_wf
def dot_S8192x16384_S16384x2048_S8192x2048_1_0_0_1_n_n : DotDims S8192x16384 S16384x2048 S8192x2048 where
  lhsContracting := [1]
  rhsContracting := [0]
  lhsNonContracting := [0]
  rhsNonContracting := [1]
  lhsBatch := []
  rhsBatch := []
  wf := dot_S8192x16384_S16384x2048_S8192x2048_1_0_0_1_n_n_wf

class Facts : Prop extends Facts₀ where

variable [Facts]
-- ==== Proof.Pieces.lean ====
/-
  What one grid point leaves in the two accumulators and in the output block, as values.

  A point holds a tile of 512 queries (s) and a tile of 512 stored rows (x). With S the 512×512 block of
  scores between them, the body adds S·x to the running weighted sum and the row sums of S to the running
  totals. At the first tile of a query tile both accumulators are first set to zero, so the point leaves
  0 + S·x and 0 + rowsum S; at every later tile it leaves acc + S·x and tot + rowsum S; and at the last tile
  it also stores the quotient of the two NEW accumulators into the output block. Each statement below is one
  of these, for any float instance: the stores' pieces read back are the body's pure terms.
-/
import proofs.«128708_j67542655697591_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First tile: the weighted sums restart from the zero block. -/
theorem sums_first (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (hc0 : cond0_0 i) (hc1 : ¬cond0_1 i)
    (x0 : Vec F S512x2048 .f32) (x1 : Vec F S512x2048 .f32) :
    sout0_A_0 c i arg2 harg2 arg3 harg3 arg4 harg4 arg5 harg5 arg6 harg6 hc0 hc1 x0 x1 = k0_pay5 x0 x1 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg5.read_unread, harg6.read_unread,
    View.ld_unit_zero (S := S512x2048) hz, View.ld_unit_zero (S := S512x1) hz]

/-- First tile: the totals restart from the zero column. -/
theorem totals_first (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (hc0 : cond0_0 i) (hc1 : ¬cond0_1 i)
    (x0 : Vec F S512x2048 .f32) (x1 : Vec F S512x2048 .f32) :
    sout0_A_1 c i arg2 harg2 arg3 harg3 arg4 harg4 arg5 harg5 arg6 harg6 hc0 hc1 x0 x1 = k0_pay4 x0 x1 (k0_pay2 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S512x1) hz, View.readCov_unit_zero (S := S512x1) _ hz]
  simp only [View.readAt_eq_ld, harg2.read_unread, harg3.read_unread, harg5.read_unread, harg6.read_unread,
    View.ld_unit_zero (S := S512x2048) hz, View.ld_unit_zero (S := S512x1) hz]

/-- A middle tile adds its share to the weighted sums. -/
theorem sums_middle (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (hc0 : ¬cond0_0 i) (hc1 : ¬cond0_1 i)
    (x0 : Vec F S512x2048 .f32) (x1 : Vec F S512x2048 .f32) (xs0 : Vec F S512x2048 .f32) (xs1 : Vec F S512x1 .f32) :
    sout0_B_0 c i arg2 harg2 arg3 harg3 arg4 harg4 arg5 harg5 arg6 harg6 hc0 hc1 x0 x1 xs0 xs1 = k0_pay5 x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg3.read_unread, harg5.read_unread, harg6.read_unread,
    View.ld_unit_zero (S := S512x2048) hz, View.ld_unit_zero (S := S512x1) hz]

/-- A middle tile adds its share to the totals. -/
theorem totals_middle (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (hc0 : ¬cond0_0 i) (hc1 : ¬cond0_1 i)
    (x0 : Vec F S512x2048 .f32) (x1 : Vec F S512x2048 .f32) (xs0 : Vec F S512x2048 .f32) (xs1 : Vec F S512x1 .f32) :
    sout0_B_1 c i arg2 harg2 arg3 harg3 arg4 harg4 arg5 harg5 arg6 harg6 hc0 hc1 x0 x1 xs0 xs1 = k0_pay4 x0 x1 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg3.read_unread, harg5.read_unread, harg6.read_unread,
    View.ld_unit_zero (S := S512x2048) hz, View.ld_unit_zero (S := S512x1) hz]

/-- The last tile adds its share to the weighted sums like any other. -/
theorem sums_last (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (hc0 : ¬cond0_0 i) (hc1 : cond0_1 i)
    (x0 : Vec F S512x2048 .f32) (x1 : Vec F S512x2048 .f32) (xs0 : Vec F S512x2048 .f32) (xs1 : Vec F S512x1 .f32) :
    sout0_C_0 c i arg2 harg2 arg3 harg3 arg4 harg4 arg5 harg5 arg6 harg6 hc0 hc1 x0 x1 xs0 xs1 = k0_pay5 x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg5.read_unread, harg6.read_unread,
    View.ld_unit_zero (S := S512x2048) hz, View.ld_unit_zero (S := S512x1) hz]

/-- The last tile adds its share to the totals like any other. -/
theorem totals_last (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (hc0 : ¬cond0_0 i) (hc1 : cond0_1 i)
    (x0 : Vec F S512x2048 .f32) (x1 : Vec F S512x2048 .f32) (xs0 : Vec F S512x2048 .f32) (xs1 : Vec F S512x1 .f32) :
    sout0_C_1 c i arg2 harg2 arg3 harg3 arg4 harg4 arg5 harg5 arg6 harg6 hc0 hc1 x0 x1 xs0 xs1 = k0_pay4 x0 x1 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg5.read_unread, harg6.read_unread,
    View.ld_unit_zero (S := S512x2048) hz, View.ld_unit_zero (S := S512x1) hz]

/-- The last tile stores the quotient of the two accumulators as it has just left them. -/
theorem block_last (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x1 .f32) (harg6 : arg6.IsWhole) (hc0 : ¬cond0_0 i) (hc1 : cond0_1 i)
    (x0 : Vec F S512x2048 .f32) (x1 : Vec F S512x2048 .f32) (xs0 : Vec F S512x2048 .f32) (xs1 : Vec F S512x1 .f32) :
    out0_C_2 c i arg2 harg2 arg3 harg3 arg4 harg4 arg5 harg5 arg6 harg6 hc0 hc1 x0 x1 xs0 xs1 = k0_pay6 (k0_pay5 x0 x1 xs0) (k0_pay4 x0 x1 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz, View.readCov_unit_zero (S := S512x2048) _ hz, View.readCov_unit_zero (S := S512x1) _ hz]
  simp only [View.readAt_eq_ld, harg2.read_unread, harg3.read_unread, harg5.read_unread, harg6.read_unread,
    View.ld_unit_zero (S := S512x2048) hz, View.ld_unit_zero (S := S512x1) hz]

end Cert.KernelIdeal.Pieces

end
-- ==== Proof.LibTransposedRhsDot.lean ====
/-
  The product of an M×K matrix with the transpose of an N×K matrix, read at one entry.

  Both operands are contracted along their last axis, so entry (p, q) of the result is the sum over
  k of left (p, k) times right (q, k). Stated for the dimension record `DotDims.transposedRhs M K N`
  at the exact instance, for the accelerator's product into the zero accumulator and for the host's
  product; general in the three extents. A printed record with contracting axes [1] and [1], free
  axes [0] and [0] and no batch axes is this record (the two differ only in a proof field).
-/
import Idealize.ShloMosaic.Lib.ValueIdx
import Idealize.ShloMosaic.PureOps.Ideal.Laws

noncomputable section

open scoped BigOperators

namespace Cert.LibTransposedRhsDot

open Idealize.ShloMosaic Idealize.ShloMosaic.ValueIdx

variable {M K N : ℕ}

/-- The left operand's index for result entry (p, q) and contraction position k is (p, k). -/
theorem lhsIdx_eq (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a; apply Fin.ext
  match a with
  | ⟨0, _⟩ =>
    show ((DotDims.transposedRhs M K N).lhsIdx (ix2 p q) _ 0).val = p.val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl _ _).trans hk

/-- The right operand's index for result entry (p, q) and contraction position k is (q, k). -/
theorem rhsIdx_eq (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a; apply Fin.ext
  match a with
  | ⟨0, _⟩ =>
    show ((DotDims.transposedRhs M K N).rhsIdx (ix2 p q) _ 0).val = q.val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl _ _).trans hk

/-- The accelerator's product into the zero accumulator: entry (p, q) is the sum over k of
    left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant (F := Ideal) ⟨2, ![M, N]⟩ .f32 0x00000000#32) (ix2 p q)
      = ∑ k : Fin K, l (ix2 p k) * r (ix2 q k) := by
  refine (Ideal.matmul_constant_zero_apply (DotDims.transposedRhs M K N) prec l r (ix2 p q)).trans ?_
  rw [← Equiv.sum_comp (contrEquiv1 (DotDims.transposedRhs M K N) K rfl rfl).symm]
  refine Finset.sum_congr rfl fun k _ => ?_
  rw [lhsIdx_eq, rhsIdx_eq]

/-- The host's product of the same shape: the same sum. -/
theorem dotGeneral_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) := by
  show FloatOps.dotGeneral _ prec _ l r (ix2 p q) = _
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhsDot

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.Payloads.lean ====
/-
  The body's four pure terms read at an index, on the extended reals. For a tile sb of 512 queries and a
  tile xb of 512 stored rows:
    the score block          S(p,j)   = (Σ_k sb(p,k)·xb(j,k))²
    the totals' update       tot(p)   + Σ_j S(p,j)
    the weighted sums' update acc(p,n) + Σ_j S(p,j)·xb(j,n)
    the quotient             a(p,n) / t(p)   (the totals' column spread along the row).
  The matrix products accumulate into a zero block and the row sum starts from zero, and on the extended reals
  neither zero adds anything.
-/
import proofs.«128708_j67542655697591_2_alg».proof.Proof.Gen.KernelIdeal.Skeleton
import proofs.«128708_j67542655697591_2_alg».proof.Proof.LibTransposedRhsDot
import proofs.«128708_j67542655697591_2_alg».proof.Proof.LibPlainDot
import proofs.«128708_j67542655697591_2_alg».proof.Proof.LibKeepdims
import Idealize.ShloMosaic.Lib.Pipeline.Value
import Idealize.ShloMosaic.Lib.ValueIdx

noncomputable section

open scoped BigOperators

namespace Cert.KernelIdeal.Payloads

open Cert.KernelIdeal Cert.KernelIdeal.Gen Idealize.ShloMosaic Idealize.ShloMosaic.ValueIdx

/-- The score of query p of the tile against stored row j of the tile. -/
def tileScore (sb xb : Vec Ideal S512x2048 .f32) (p j : Fin 512) : EReal :=
  (∑ k : Fin 2048, sb (ix2 p k) * xb (ix2 j k)) * (∑ k : Fin 2048, sb (ix2 p k) * xb (ix2 j k))

/-- The score block at (p, j). -/
theorem scores_apply (sb xb : Vec Ideal S512x2048 .f32) (p j : Fin 512) :
    k0_pay3 (F := Ideal) sb xb (ix2 p j) = tileScore sb xb p j := by
  have h := Cert.LibTransposedRhsDot.matmul_zero_apply (M := 512) (K := 2048) (N := 512) (φ₁ := .f32) (φ₂ := .f32) (some .fp32) sb xb p j
  exact congrArg₂ (· * ·) h h

/-- The totals' update at row p: what was there plus the row sum of the score block. -/
theorem totals_apply (sb xb : Vec Ideal S512x2048 .f32) (tot : Vec Ideal S512x1 .f32) (p : Fin 512) :
    k0_pay4 (F := Ideal) sb xb tot (ix2 p (0 : Fin 1)) = tot (ix2 p (0 : Fin 1)) + ∑ j : Fin 512, tileScore sb xb p j := by
  unfold k0_pay4
  refine (congrFun (shapeCast_self _ _) _).trans ?_
  refine (addf_apply _ _ _).trans (congrArg (tot (ix2 p (0 : Fin 1)) + ·) ?_)
  refine (Cert.Keepdims.shapeCast_a_a1_apply _ _ p (0 : Fin 1)).trans ?_
  refine (Cert.Keepdims.laneSum_apply (a := 512) (b := 512) _ _ _ _ p).trans ?_
  exact Finset.sum_congr rfl fun j _ => scores_apply sb xb p j

/-- The weighted sums' update at (p, n): what was there plus the score block's row p against column n of the tile. -/
theorem sums_apply (sb xb : Vec Ideal S512x2048 .f32) (acc : Vec Ideal S512x2048 .f32) (p : Fin 512) (n : Fin 2048) :
    k0_pay5 (F := Ideal) sb xb acc (ix2 p n) = acc (ix2 p n) + ∑ j : Fin 512, tileScore sb xb p j * xb (ix2 j n) := by
  unfold k0_pay5
  refine (congrFun (shapeCast_self _ _) _).trans ?_
  refine (addf_apply _ _ _).trans (congrArg (acc (ix2 p n) + ·) ?_)
  refine (Cert.LibPlainDot.matmul_zero_apply 512 512 2048 (φ₁ := .f32) (φ₂ := .f32) (some .fp32) _ xb (ix2 p n)).trans ?_
  exact Finset.sum_congr rfl fun j _ => congrArg (· * xb (ix2 j n)) (scores_apply sb xb p j)

/-- The quotient at (p, n): the weighted sum over the row's total. -/
theorem quotient_apply (a : Vec Ideal S512x2048 .f32) (t : Vec Ideal S512x1 .f32) (p : Fin 512) (n : Fin 2048) :
    k0_pay6 (F := Ideal) a t (ix2 p n) = Ideal.div (a (ix2 p n)) (t (ix2 p (0 : Fin 1))) := by
  unfold k0_pay6
  refine (divf_apply _ _ _).trans (congrArg (Ideal.div (a (ix2 p n))) ?_)
  exact Cert.Keepdims.broadcastTo_a1_ab_apply (a := 512) (b := 2048) t _ p n

/-- The zero block the weighted sums restart from. -/
theorem zeroBlock_apply (i : S512x2048.Idx) : k0_pay1 (F := Ideal) i = 0 := by
  unfold k0_pay1
  refine (congrFun (shapeCast_self _ _) _).trans ?_
  exact Ideal.ofBits_zero_f32

/-- The zero column the totals restart from. -/
theorem zeroColumn_apply (i : S512x1.Idx) : k0_pay2 (F := Ideal) i = 0 := by
  unfold k0_pay2
  refine (congrFun (shapeCast_self _ _) _).trans ?_
  exact Ideal.ofBits_zero_f32

end Cert.KernelIdeal.Payloads

end
-- ==== Proof.LibRealEntries.lean ====
/-
  Real-valued entries on the extended reals.

  At the exact instance a float is an extended real, and the laws that join two arrangements of one computation
  (distributing a factor over a difference, regrouping a mixed sum) hold for real numbers but fail at the infinities.
  This file says when an extended real IS a real number (`IsReal`), that the property is kept by sums, differences,
  products, maxima, choices, finite sums, division by a nonzero real and the reciprocal square root of a positive real or
  of anything at least one, that a finite sum of reals is the real sum, and the one algebraic identity of batch
  normalisation: scaling then shifting by a precomputed pair equals centring, scaling and shifting.
-/
import Idealize.ShloMosaic.PureOps.Ideal

namespace RealEntries

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r

/-- An extended real that is neither infinity is a real number. -/
theorem isReal_of_ne {x : EReal} (ht : x ≠ ⊤) (hb : x ≠ ⊥) : IsReal x := by
  induction x using EReal.rec with
  | bot => exact absurd rfl hb
  | top => exact absurd rfl ht
  | coe r => exact ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.ite {p : Prop} [Decidable p] {x y : EReal} (hx : IsReal x) (hy : IsReal y) : IsReal (if p then x else y) := by
  split <;> assumption

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The extended-real sum of real numbers is their real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Division by a nonzero real keeps a real number real. -/
theorem IsReal.div_coe {x : EReal} (hx : IsReal x) {y : ℝ} (hy : y ≠ 0) : IsReal (Ideal.div x (y : EReal)) := by
  rw [Ideal.div_coe hy]; exact hx.mul (isReal_coe _)

/-- The reciprocal square root of a positive real is a real number. -/
theorem isReal_rsqrt_of_pos {r : ℝ} (h : 0 < r) : IsReal (Ideal.rsqrt (r : EReal)) := by
  rw [Ideal.rsqrt_coe, if_neg (not_lt.mpr h.le), if_neg h.ne']; exact isReal_coe _

/-- The reciprocal square root of anything at least one — plus infinity included — is a real number. -/
theorem isReal_rsqrt_of_one_le {x : EReal} (h : 1 ≤ x) : IsReal (Ideal.rsqrt x) := by
  induction x using EReal.rec with
  | bot => exact absurd (le_bot_iff.mp h) (EReal.coe_ne_bot 1)
  | top => rw [Ideal.rsqrt_top]; exact isReal_zero
  | coe r =>
    have hr : (1 : ℝ) ≤ r := by exact_mod_cast h
    exact isReal_rsqrt_of_pos (by linarith)

/-- Batch normalisation's two arrangements agree on real numbers: with `s = g·r`, `a·s + (b − m·s) = ((a − m)·r)·g + b`. -/
theorem bn_affine (a m r g b : ℝ) :
    (a : EReal) * ((g : EReal) * (r : EReal)) + ((b : EReal) - (m : EReal) * ((g : EReal) * (r : EReal)))
      = (((a : EReal) - (m : EReal)) * (r : EReal)) * (g : EReal) + (b : EReal) := by
  rw [← EReal.coe_mul, ← EReal.coe_mul, ← EReal.coe_mul, ← EReal.coe_sub, ← EReal.coe_add, ← EReal.coe_sub, ← EReal.coe_mul,
    ← EReal.coe_mul, ← EReal.coe_add]
  congr 1; ring

end RealEntries
-- ==== Proof.LibBlockSum.lean ====
/-
  A finite sum cut into consecutive blocks of one length.

  A sum over the first `a * b` naturals is the sum, over the `a` blocks in order, of each block's `b` terms: the term
  at position `j` of block `s` sits at `s * b + j`. Only associativity and commutativity of the addition are used, so
  the regrouping holds in any commutative monoid — in particular on the extended reals, infinities included. The second
  form reads the whole sum and every block's sum over `Fin` index types, as a contraction over `a * b` positions cut
  into `a` contractions over `b` positions meets it.
-/
import Mathlib.Algebra.BigOperators.Fin
import Mathlib.Data.Fintype.BigOperators

namespace Cert.LibBlockSum

open Finset

variable {β : Type*} [AddCommMonoid β]

/-- The sum of `g` over the naturals below `a * b`, block by block. -/
theorem sum_range_mul (g : ℕ → β) (a b : ℕ) :
    ∑ n ∈ range (a * b), g n = ∑ s ∈ range a, ∑ j ∈ range b, g (s * b + j) := by
  induction a with
  | zero => simp
  | succ a ih => rw [Nat.succ_mul, sum_range_add, ih, sum_range_succ]

/-- The same regrouping over `Fin` index types: a sum over `n = a * b` positions is the sum over the `a` blocks of each
    block's sum over its `b` positions. -/
theorem sum_fin_blocks (g : ℕ → β) (a b n : ℕ) (hn : n = a * b) :
    ∑ k : Fin n, g k.val = ∑ s ∈ range a, ∑ j : Fin b, g (s * b + j.val) := by
  subst hn
  rw [Fin.sum_univ_eq_sum_range g (a * b), sum_range_mul]
  exact sum_congr rfl fun s _ => (Fin.sum_univ_eq_sum_range (fun j => g (s * b + j)) b).symm

end Cert.LibBlockSum
-- ==== Proof.Retrieval.lean ====
/-
  The retrieval both programs compute, as one function of the queries s : [8192, 2048] and the stored rows
  X : [16384, 2048] on the extended reals. With the overlap r(q,p) = Σ_k s(q,k)·X(p,k) and the score
  a(q,p) = r(q,p)², the result at (q,n) is the score-weighted mean of column n of X,

      (Σ_p a(q,p)·X(p,n)) / (Σ_p a(q,p)).

  One fact about sums is proved here: a sum over the 16384 stored rows is the sum over 32 consecutive tiles
  of 512 rows (only associativity and commutativity of +, which hold at the infinities too). The other fact
  the certificate needs — dividing each weight by the total BEFORE summing, as a row-normalised score matrix
  does, gives the same mean when every entry is a real number and the total is not zero — is the weighted-mean
  law of the directory's general lemma file.
-/
import Idealize.ShloMosaic.PureOps.Ideal
import Idealize.ShloMosaic.Lib.ValueIdx
import proofs.«128708_j67542655697591_2_alg».proof.Proof.LibRealEntries
import proofs.«128708_j67542655697591_2_alg».proof.Proof.LibBlockSum

noncomputable section

open scoped BigOperators

namespace Cert.Retrieval

open Idealize.ShloMosaic Idealize.ShloMosaic.ValueIdx RealEntries

/-- The queries' shape, and the result's. -/
abbrev SQ : Shape := ⟨2, ![8192, 2048]⟩
/-- The stored rows' shape. -/
abbrev SP : Shape := ⟨2, ![16384, 2048]⟩

/-- The overlap of query q with stored row p. -/
def overlap (s : SQ.Idx → EReal) (x : SP.Idx → EReal) (q : Fin 8192) (p : Fin 16384) : EReal :=
  ∑ k : Fin 2048, s (ix2 q k) * x (ix2 p k)

/-- The score of stored row p for query q: the overlap squared. -/
def score (s : SQ.Idx → EReal) (x : SP.Idx → EReal) (q : Fin 8192) (p : Fin 16384) : EReal :=
  overlap s x q p * overlap s x q p

/-- The total score of query q over all stored rows. -/
def total (s : SQ.Idx → EReal) (x : SP.Idx → EReal) (q : Fin 8192) : EReal :=
  ∑ p : Fin 16384, score s x q p

/-- The retrieval: at (q, n) the score-weighted sum of column n, divided by the total score. -/
def retrieve (s : SQ.Idx → EReal) (x : SP.Idx → EReal) : SQ.Idx → EReal := fun i =>
  Ideal.div (∑ p : Fin 16384, score s x (i 0) p * x (ix2 p (i 1))) (total s x (i 0))

/-- The retrieval at explicit coordinates. -/
theorem retrieve_apply (s : SQ.Idx → EReal) (x : SP.Idx → EReal) (q : Fin 8192) (n : Fin 2048) :
    retrieve s x (ix2 q n) = Ideal.div (∑ p : Fin 16384, score s x q p * x (ix2 p n)) (total s x q) := rfl

/-- Row j of tile b of the stored rows: row 512·b + j (read modulo 16384, so that it is a row for every natural b;
    for b < 32 the reduction does nothing). -/
def tileRow (b : ℕ) (j : Fin 512) : Fin 16384 := ⟨(b * 512 + j.val) % 16384, Nat.mod_lt _ (by norm_num)⟩

/-- Row p of tile a of the queries: row 512·a + p (modulo 8192; for a < 16 the reduction does nothing). -/
def queryRow (a : ℕ) (p : Fin 512) : Fin 8192 := ⟨(a * 512 + p.val) % 8192, Nat.mod_lt _ (by norm_num)⟩

/-- A sum over the stored rows, tile by tile: 32 tiles of 512 rows. -/
theorem sum_tiles (g : Fin 16384 → EReal) :
    ∑ b ∈ Finset.range 32, ∑ j : Fin 512, g (tileRow b j) = ∑ p : Fin 16384, g p := by
  have h := Cert.LibBlockSum.sum_fin_blocks
    (fun n : ℕ => g ⟨n % 16384, Nat.mod_lt _ (by norm_num)⟩) 32 512 16384 (by norm_num)
  refine Eq.trans ?_ (Eq.trans h.symm ?_)
  · rfl
  · exact Finset.sum_congr rfl fun p _ => congrArg g (Fin.ext (Nat.mod_eq_of_lt p.isLt))

end Cert.Retrieval

end
-- ==== Proof.Blocks.lean ====
/-
  Which rows the windows hold at a grid point. The grid is 16 query tiles by 32 stored-row tiles, walked row
  by row, so point t works on query tile t / 32 and stored-row tile t mod 32: the queries' block is rows
  512·(t/32) … of s, the stored rows' block is rows 512·(t mod 32) … of X, and the result's block is rows
  512·(t/32) … of the result. All three blocks span the whole second axis.
-/
import proofs.«128708_j67542655697591_2_alg».proof.Proof.Gen.KernelIdeal.Frame
import proofs.«128708_j67542655697591_2_alg».proof.Proof.Retrieval
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Retrieval

variable {F : FTy → Type} [FloatOps F]
variable (m : (ℓ : Loc nD τ sig) → Buf (Elt F) ℓ)

/-- The queries' window is at block (t / 32, 0). -/
theorem queries_index : ∀ t : Fin cfg0.N, win0_0.index t 0 = t.val / 32 ∧ win0_0.index t 1 = 0 :=
  (by decide +kernel : ∀ t : Fin grid0.N, win0_0.index t 0 = t.val / 32 ∧ win0_0.index t 1 = 0)

/-- The stored rows' window is at block (t mod 32, 0). -/
theorem stored_index : ∀ t : Fin cfg0.N, win0_1.index t 0 = t.val % 32 ∧ win0_1.index t 1 = 0 :=
  (by decide +kernel : ∀ t : Fin grid0.N, win0_1.index t 0 = t.val % 32 ∧ win0_1.index t 1 = 0)

/-- The result's window is at block (t / 32, 0). -/
theorem result_index : ∀ t : Fin cfg0.N, win0_2.index t 0 = t.val / 32 ∧ win0_2.index t 1 = 0 :=
  (by decide +kernel : ∀ t : Fin grid0.N, win0_2.index t 0 = t.val / 32 ∧ win0_2.index t 1 = 0)

/-- Entry (p, k) of the queries' block at point t is entry (512·(t/32) + p, k) of s. -/
theorem queries_apply (c : Dev nD) (t : Fin cfg0.N) (p : Fin 512) (k : Fin 2048) :
    (iblk m c 0 t : Vec F S512x2048 .f32) (ix2 p k)
      = m ((c : Thread nD τ).loc main_arg1) (ix2 (queryRow (t.val / 32) p) k) := by
  have hi := queries_index t
  have hN : t.val < 512 := lt_of_lt_of_eq t.isLt N_0
  unfold iblk
  rw [View.read_apply]
  show V m c main_arg1 _ = m (c.tc.loc main_arg1) _
  unfold V
  congr 1
  funext a
  apply Fin.ext
  match a with
  | ⟨0, _⟩ =>
    show win0_0.index t 0 * 512 + 1 * p.val = (t.val / 32 * 512 + p.val) % 8192
    have hlt : t.val / 32 * 512 + p.val < 8192 := by have := p.isLt; omega
    rw [hi.1, Nat.mod_eq_of_lt hlt]; omega
  | ⟨1, _⟩ =>
    show win0_0.index t 1 * 2048 + 1 * k.val = k.val
    rw [hi.2]; omega

/-- Entry (j, k) of the stored rows' block at point t is entry (512·(t mod 32) + j, k) of X. -/
theorem stored_apply (c : Dev nD) (t : Fin cfg0.N) (j : Fin 512) (k : Fin 2048) :
    (iblk m c 1 t : Vec F S512x2048 .f32) (ix2 j k)
      = m ((c : Thread nD τ).loc main_arg0) (ix2 (tileRow (t.val % 32) j) k) := by
  have hi := stored_index t
  unfold iblk
  rw [View.read_apply]
  show V m c main_arg0 _ = m (c.tc.loc main_arg0) _
  unfold V
  congr 1
  funext a
  apply Fin.ext
  match a with
  | ⟨0, _⟩ =>
    show win0_1.index t 0 * 512 + 1 * j.val = (t.val % 32 * 512 + j.val) % 16384
    have hlt : t.val % 32 * 512 + j.val < 16384 := by have := j.isLt; omega
    rw [hi.1, Nat.mod_eq_of_lt hlt]; omega
  | ⟨1, _⟩ =>
    show win0_1.index t 1 * 2048 + 1 * k.val = k.val
    rw [hi.2]; omega

end Cert.KernelIdeal.Blocks

end
-- ==== Proof.Accumulate.lean ====
/-
  What the two accumulators hold after each grid point, and what the result's block holds at the last
  stored-row tile of a query tile, on the extended reals.

  Point n (query tile n / 32, stored-row tile n mod 32) contributes, to row p and column c of the weighted
  sums, Σ_j a(q, r_j)·X(r_j, c) over the 512 rows r_j of its stored-row tile, q = row p of its query tile; and
  to row p of the totals, Σ_j a(q, r_j). The accumulators restart from zero at the first tile of each query
  tile and every later tile adds its share, so after the tile number 31 they hold the sums over all 32 tiles,
  that is over all 16384 stored rows — the regrouping of a sum, valid at the infinities too. The last tile
  then stores their quotient: the retrieval at (q, c). No finiteness is used anywhere here.
-/
import proofs.«128708_j67542655697591_2_alg».proof.Proof.Gen.KernelIdeal.Value
import proofs.«128708_j67542655697591_2_alg».proof.Proof.Pieces
import proofs.«128708_j67542655697591_2_alg».proof.Proof.Payloads
import proofs.«128708_j67542655697591_2_alg».proof.Proof.Blocks
import proofs.«128708_j67542655697591_2_alg».proof.Proof.Retrieval

noncomputable section

open scoped BigOperators

namespace Cert.KernelIdeal.Accumulate

open Cert.KernelIdeal Cert.KernelIdeal.Gen Idealize.ShloMosaic Idealize.ShloMosaic.TcCoe Idealize.SL.Sem
open Idealize.ShloMosaic.ValueIdx Cert.Retrieval Cert.KernelIdeal.Payloads Cert.KernelIdeal.Blocks

/-- A score block over tiles that hold rows q-tile and r-tile of two arrays is those rows' scores. -/
theorem tileScore_of (sb xb : Vec Ideal S512x2048 .f32) (s' : SQ.Idx → EReal) (x' : SP.Idx → EReal)
    (q : Fin 8192) (r : Fin 16384) (p j : Fin 512)
    (hs : ∀ k : Fin 2048, sb (ix2 p k) = s' (ix2 q k)) (hx : ∀ k : Fin 2048, xb (ix2 j k) = x' (ix2 r k)) :
    tileScore sb xb p j = score s' x' q r := by
  have h : (∑ k : Fin 2048, sb (ix2 p k) * xb (ix2 j k)) = overlap s' x' q r :=
    Finset.sum_congr rfl fun k _ => congrArg₂ (· * ·) (hs k) (hx k)
  exact congrArg₂ (· * ·) h h

variable (m : (ℓ : Loc nD τ sig) → Buf (Elt Ideal) ℓ)

/-- The queries, as the run finds them. -/
abbrev queries (c : Dev nD) : SQ.Idx → EReal := m ((c : Thread nD τ).loc main_arg1)
/-- The stored rows, as the run finds them. -/
abbrev stored (c : Dev nD) : SP.Idx → EReal := m ((c : Thread nD τ).loc main_arg0)

/-- Point n's share of entry (p, col) of the weighted sums. -/
def sumEntry (c : Dev nD) (n : ℕ) (p : Fin 512) (col : Fin 2048) : EReal :=
  ∑ j : Fin 512, score (queries m c) (stored m c) (queryRow (n / 32) p) (tileRow (n % 32) j)
    * stored m c (ix2 (tileRow (n % 32) j) col)

/-- Point n's share of entry p of the totals. -/
def totEntry (c : Dev nD) (n : ℕ) (p : Fin 512) : EReal :=
  ∑ j : Fin 512, score (queries m c) (stored m c) (queryRow (n / 32) p) (tileRow (n % 32) j)

/-- Point n's share of the weighted sums, as a block. -/
def sumShare (c : Dev nD) (n : ℕ) : S512x2048.Idx → EReal := fun i => sumEntry m c n (i 0) (i 1)

/-- Point n's share of the totals, as a column. -/
def totShare (c : Dev nD) (n : ℕ) : S512x1.Idx → EReal := fun i => totEntry m c n (i 0)

/-- The score block of a point's two tiles is the scores of the rows they hold. -/
theorem tileScore_eq (c : Dev nD) (t : Fin cfg0.N) (p j : Fin 512) :
    tileScore (iblk m c 0 t) (iblk m c 1 t) p j
      = score (queries m c) (stored m c) (queryRow (t.val / 32) p) (tileRow (t.val % 32) j) :=
  tileScore_of (iblk m c 0 t) (iblk m c 1 t) (queries m c) (stored m c) (queryRow (t.val / 32) p)
    (tileRow (t.val % 32) j) p j (queries_apply m c t p) (stored_apply m c t j)

/-- One point's update of the weighted sums adds its share. -/
theorem sums_step (c : Dev nD) (t : Fin cfg0.N) (acc : Vec Ideal S512x2048 .f32) (i : S512x2048.Idx) :
    k0_pay5 (F := Ideal) (iblk m c 0 t) (iblk m c 1 t) acc i = acc i + sumShare m c t.val i := by
  obtain ⟨p, n, rfl⟩ : ∃ (p : Fin 512) (n : Fin 2048), i = ix2 p n := ⟨i 0, i 1, eq_ix2 i⟩
  refine (sums_apply (iblk m c 0 t) (iblk m c 1 t) acc p n).trans (congrArg (acc (ix2 p n) + ·) ?_)
  exact Finset.sum_congr rfl fun j _ => congrArg₂ (· * ·) (tileScore_eq m c t p j) (stored_apply m c t j n)

/-- One point's update of the totals adds its share. -/
theorem totals_step (c : Dev nD) (t : Fin cfg0.N) (tot : Vec Ideal S512x1 .f32) (i : S512x1.Idx) :
    k0_pay4 (F := Ideal) (iblk m c 0 t) (iblk m c 1 t) tot i = tot i + totShare m c t.val i := by
  obtain ⟨p, rfl⟩ : ∃ p : Fin 512, i = ix2 p (0 : Fin 1) :=
    ⟨i 0, (eq_ix2 i).trans (congrArg (ix2 (i 0)) (Fin.ext (show (i 1).val = 0 by have := idx2_lt1 i; omega)))⟩
  refine (totals_apply (iblk m c 0 t) (iblk m c 1 t) tot p).trans (congrArg (tot (ix2 p (0 : Fin 1)) + ·) ?_)
  exact Finset.sum_congr rfl fun j _ => tileScore_eq m c t p j

/-- At the first tile of a query tile the weighted sums restart: zero plus the point's share. -/
theorem sums_restart (c : Dev nD) (n : ℕ) (hb : n < cfg0.N) (h0 : n % 32 = 0) (acc : Vec Ideal S512x2048 .f32)
    (i : S512x2048.Idx) : Value.scAt0_0 m c n hb acc i = 0 + sumShare m c n i := by
  have h1 : ¬n % 32 = 31 := by omega
  unfold Value.scAt0_0
  rw [dif_pos h0, dif_neg h1]
  refine (congrFun (Pieces.sums_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))) i).trans ?_
  refine (sums_step m c (⟨n, hb⟩ : Fin cfg0.N) (k0_pay1 (F := Ideal)) i).trans ?_
  exact congrArg (· + sumShare m c n i) (zeroBlock_apply i)

/-- At every later tile the weighted sums grow by the point's share. -/
theorem sums_grow (c : Dev nD) (n : ℕ) (hb : n < cfg0.N) (h0 : ¬n % 32 = 0) (acc : Vec Ideal S512x2048 .f32)
    (i : S512x2048.Idx) : Value.scAt0_0 m c n hb acc i = acc i + sumShare m c n i := by
  unfold Value.scAt0_0
  by_cases h1 : n % 32 = 31
  · rw [dif_neg h0, dif_pos h1]
    refine (congrFun (Pieces.sums_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc _) i).trans ?_
    exact sums_step m c (⟨n, hb⟩ : Fin cfg0.N) acc i
  · rw [dif_neg h0, dif_neg h1]
    refine (congrFun (Pieces.sums_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc _) i).trans ?_
    exact sums_step m c (⟨n, hb⟩ : Fin cfg0.N) acc i

/-- At the first tile of a query tile the totals restart. -/
theorem totals_restart (c : Dev nD) (n : ℕ) (hb : n < cfg0.N) (h0 : n % 32 = 0) (tot : Vec Ideal S512x1 .f32)
    (i : S512x1.Idx) : Value.scAt0_1 m c n hb tot i = 0 + totShare m c n i := by
  have h1 : ¬n % 32 = 31 := by omega
  unfold Value.scAt0_1
  rw [dif_pos h0, dif_neg h1]
  refine (congrFun (Pieces.totals_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))) i).trans ?_
  refine (totals_step m c (⟨n, hb⟩ : Fin cfg0.N) (k0_pay2 (F := Ideal)) i).trans ?_
  exact congrArg (· + totShare m c n i) (zeroColumn_apply i)

/-- At every later tile the totals grow by the point's share. -/
theorem totals_grow (c : Dev nD) (n : ℕ) (hb : n < cfg0.N) (h0 : ¬n % 32 = 0) (tot : Vec Ideal S512x1 .f32)
    (i : S512x1.Idx) : Value.scAt0_1 m c n hb tot i = tot i + totShare m c n i := by
  unfold Value.scAt0_1
  by_cases h1 : n % 32 = 31
  · rw [dif_neg h0, dif_pos h1]
    refine (congrFun (Pieces.totals_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) _ tot) i).trans ?_
    exact totals_step m c (⟨n, hb⟩ : Fin cfg0.N) tot i
  · rw [dif_neg h0, dif_neg h1]
    refine (congrFun (Pieces.totals_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) _ tot) i).trans ?_
    exact totals_step m c (⟨n, hb⟩ : Fin cfg0.N) tot i

/-- After point t the weighted sums hold the shares of the tiles so far of t's query tile. -/
theorem sums_fold (c : Dev nD) (t : Fin cfg0.N) (i : S512x2048.Idx) :
    (outsAt0 m c t.val t.isLt).2.1 i
      = 0 + ∑ s ∈ Finset.range (t.val % 32 + 1), sumShare m c (32 * (t.val / 32) + s) i := by
  rw [Value.soutsAt0_0_eq m c t]
  exact Pipeline.accAt_add_apply (fun n h => Value.scAt0_0 m c n h (VS0_0.read (Elt Ideal) VS0_0.junk))
    (Value.scAt0_0 m c) (fun _ => 0) (sumShare m c) (32 * (t.val / 32)) 31
    (fun h i => sums_restart m c _ h (by omega) _ i)
    (fun n h acc i hlo hhi => sums_grow m c n h (by omega) acc i)
    (t.val % 32) (by omega) _ i

/-- After point t the totals hold the shares of the tiles so far of t's query tile. -/
theorem totals_fold (c : Dev nD) (t : Fin cfg0.N) (i : S512x1.Idx) :
    (outsAt0 m c t.val t.isLt).2.2 i
      = 0 + ∑ s ∈ Finset.range (t.val % 32 + 1), totShare m c (32 * (t.val / 32) + s) i := by
  rw [Value.soutsAt0_1_eq m c t]
  exact Pipeline.accAt_add_apply (fun n h => Value.scAt0_1 m c n h (VS0_1.read (Elt Ideal) VS0_1.junk))
    (Value.scAt0_1 m c) (fun _ => 0) (totShare m c) (32 * (t.val / 32)) 31
    (fun h i => totals_restart m c _ h (by omega) _ i)
    (fun n h acc i hlo hhi => totals_grow m c n h (by omega) acc i)
    (t.val % 32) (by omega) _ i

/-- After the last tile the weighted sums run over all the stored rows. -/
theorem sums_full (c : Dev nD) (t : Fin cfg0.N) (h31 : t.val % 32 = 31) (p : Fin 512) (n : Fin 2048) :
    (outsAt0 m c t.val t.isLt).2.1 (ix2 p n)
      = ∑ r : Fin 16384, score (queries m c) (stored m c) (queryRow (t.val / 32) p) r * stored m c (ix2 r n) := by
  rw [sums_fold m c t (ix2 p n), h31, zero_add,
    ← sum_tiles (fun r => score (queries m c) (stored m c) (queryRow (t.val / 32) p) r * stored m c (ix2 r n))]
  refine Finset.sum_congr rfl fun s hs => ?_
  have hs' : s < 32 := Finset.mem_range.mp hs
  have e1 : (32 * (t.val / 32) + s) / 32 = t.val / 32 := by omega
  have e2 : (32 * (t.val / 32) + s) % 32 = s := by omega
  show sumEntry m c (32 * (t.val / 32) + s) p n = _
  unfold sumEntry
  rw [e1, e2]

/-- After the last tile the totals run over all the stored rows. -/
theorem totals_full (c : Dev nD) (t : Fin cfg0.N) (h31 : t.val % 32 = 31) (p : Fin 512) :
    (outsAt0 m c t.val t.isLt).2.2 (ix2 p (0 : Fin 1)) = total (queries m c) (stored m c) (queryRow (t.val / 32) p) := by
  unfold total
  rw [totals_fold m c t (ix2 p (0 : Fin 1)), h31, zero_add,
    ← sum_tiles (fun r => score (queries m c) (stored m c) (queryRow (t.val / 32) p) r)]
  refine Finset.sum_congr rfl fun s hs => ?_
  have hs' : s < 32 := Finset.mem_range.mp hs
  have e1 : (32 * (t.val / 32) + s) / 32 = t.val / 32 := by omega
  have e2 : (32 * (t.val / 32) + s) % 32 = s := by omega
  show totEntry m c (32 * (t.val / 32) + s) p = _
  unfold totEntry
  rw [e1, e2]

/-- At a last tile the output block is the quotient term of that point's two updates. -/
theorem last_block (c : Dev nD) (t : Fin cfg0.N) (h0 : ¬t.val % 32 = 0) (h31 : t.val % 32 = 31)
    (hb : t.val - 1 < cfg0.N) :
    (outsAt0 m c t.val t.isLt).1
      = k0_pay6 (F := Ideal) (k0_pay5 (iblk m c 0 t) (iblk m c 1 t) (outsAt0 m c (t.val - 1) hb).2.1) (k0_pay4 (iblk m c 0 t) (iblk m c 1 t) (outsAt0 m c (t.val - 1) hb).2.2) := by
  rw [outsAt0_C m c t h0 h31]
  dsimp only
  exact Pieces.block_last c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h31) (iblk m c 0 t) (iblk m c 1 t) (outsAt0 m c (t.val - 1) hb).2.1 (outsAt0 m c (t.val - 1) hb).2.2

/-- At a last tile the weighted sums are that point's update of the earlier ones. -/
theorem last_sums (c : Dev nD) (t : Fin cfg0.N) (h0 : ¬t.val % 32 = 0) (h31 : t.val % 32 = 31)
    (hb : t.val - 1 < cfg0.N) :
    (outsAt0 m c t.val t.isLt).2.1 = k0_pay5 (F := Ideal) (iblk m c 0 t) (iblk m c 1 t) (outsAt0 m c (t.val - 1) hb).2.1 := by
  rw [outsAt0_C m c t h0 h31]
  dsimp only
  exact Pieces.sums_last c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h31) (iblk m c 0 t) (iblk m c 1 t) (outsAt0 m c (t.val - 1) hb).2.1 (outsAt0 m c (t.val - 1) hb).2.2

/-- At a last tile the totals are that point's update of the earlier ones. -/
theorem last_totals (c : Dev nD) (t : Fin cfg0.N) (h0 : ¬t.val % 32 = 0) (h31 : t.val % 32 = 31)
    (hb : t.val - 1 < cfg0.N) :
    (outsAt0 m c t.val t.isLt).2.2 = k0_pay4 (F := Ideal) (iblk m c 0 t) (iblk m c 1 t) (outsAt0 m c (t.val - 1) hb).2.2 := by
  rw [outsAt0_C m c t h0 h31]
  dsimp only
  exact Pieces.totals_last c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h31) (iblk m c 0 t) (iblk m c 1 t) (outsAt0 m c (t.val - 1) hb).2.1 (outsAt0 m c (t.val - 1) hb).2.2

/-- At a last tile the result's block holds the retrieval for the rows of its query tile. -/
theorem block_full (c : Dev nD) (t : Fin cfg0.N) (h0 : ¬t.val % 32 = 0) (h31 : t.val % 32 = 31)
    (p : Fin 512) (n : Fin 2048) :
    (outsAt0 m c t.val t.isLt).1 (ix2 p n)
      = retrieve (queries m c) (stored m c) (ix2 (queryRow (t.val / 32) p) n) := by
  have hb : t.val - 1 < cfg0.N := Nat.lt_of_le_of_lt (Nat.sub_le _ _) t.isLt
  refine (congrFun (last_block m c t h0 h31 hb) (ix2 p n)).trans ?_
  refine (quotient_apply (k0_pay5 (F := Ideal) (iblk m c 0 t) (iblk m c 1 t) (outsAt0 m c (t.val - 1) hb).2.1)
    (k0_pay4 (F := Ideal) (iblk m c 0 t) (iblk m c 1 t) (outsAt0 m c (t.val - 1) hb).2.2) p n).trans ?_
  refine (congrArg₂ Ideal.div (congrFun (last_sums m c t h0 h31 hb).symm (ix2 p n))
    (congrFun (last_totals m c t h0 h31 hb).symm (ix2 p (0 : Fin 1)))).trans ?_
  refine (congrArg₂ Ideal.div (sums_full m c t h31 p n) (totals_full m c t h31 p)).trans ?_
  exact (retrieve_apply (queries m c) (stored m c) (queryRow (t.val / 32) p) n).symm

end Cert.KernelIdeal.Accumulate

end
-- ==== Proof.Final.lean ====
/-
  The kernel's result array after the run is the retrieval.

  The result's window is written back only at the last stored-row tile of each query tile (the points
  t ≡ 31 mod 32), and the block written there is rows 512·(t/32) … of the retrieval, all columns. Query tile
  a is written back at point 32·a + 31, so the sixteen written blocks cover the whole array, and the array
  ends holding the retrieval of the arrays as the run found them.
-/
import proofs.«128708_j67542655697591_2_alg».proof.Proof.Accumulate

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Retrieval Cert.KernelIdeal.Blocks Cert.KernelIdeal.Accumulate

variable (m : (ℓ : Loc nD τ sig) → Buf (Elt Ideal) ℓ) (ρ : Dev nD → PrngReg)

-- the retrieval enters this module only as a whole function of the index
attribute [local irreducible] Cert.Retrieval.retrieve

/-- At a last tile the whole output block, as a function of the block's coordinates. -/
theorem block_eq (c : Dev nD) (t : Fin cfg0.N) (h0 : ¬t.val % 32 = 0) (h31 : t.val % 32 = 31) :
    (outsAt0 m c t.val t.isLt).1
      = fun i : S512x2048.Idx => retrieve (queries m c) (stored m c) (ix2 (queryRow (t.val / 32) (i 0)) (i 1)) := by
  funext i
  obtain ⟨p, n, rfl⟩ : ∃ (p : Fin 512) (n : Fin 2048), i = ix2 p n := ⟨i 0, i 1, eq_ix2 i⟩
  exact block_full m c t h0 h31 p n

/-- What a written-back point writes is its block of the retrieval. -/
theorem flushed_eq (c : Dev nD) (t : Fin cfg0.N) (hf : (cfg0.win 2).flush t = true) :
    (dats m 0 c).flushed 2 t
      = ((cfg0.win 2).blk t).view.read (Elt Ideal) (retrieve (queries m c) (stored m c)) := by
  have h31 : t.val % 32 = 31 := (flush0_2 t).mp hf
  have h0 : ¬t.val % 32 = 0 := by omega
  have hi := result_index t
  have hN : t.val < 512 := lt_of_lt_of_eq t.isLt N_0
  rw [Value.flushed2 m c t, block_eq m c t h0 h31]
  funext y
  rw [View.read_apply]
  show _ = retrieve (queries m c) (stored m c) (((cfg0.win 2).blk t).view.emb y)
  refine congrArg (retrieve (queries m c) (stored m c)) ?_
  funext a
  apply Fin.ext
  match a with
  | ⟨0, _⟩ =>
    show (t.val / 32 * 512 + (y 0).val) % 8192 = win0_2.index t 0 * 512 + 1 * (y 0).val
    have hy : (y 0).val < 512 := (y 0).isLt
    have hlt : t.val / 32 * 512 + (y 0).val < 8192 := by omega
    rw [hi.1, Nat.mod_eq_of_lt hlt]; omega
  | ⟨1, _⟩ =>
    show (y 1).val = win0_2.index t 1 * 2048 + 1 * (y 1).val
    rw [hi.2]; omega

/-- An index of the result is in point t's block iff each coordinate is in the block's range on its axis. -/
theorem mem_block (t : Fin cfg0.N) (i : S8192x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v0).slice (win0_2.rect t)).set ↔ _
  rw [View.set_slice_whole, Rect.mem_set_unit]
  exact Iff.rfl

/-- Every index of the result lies in the block some written-back point writes. -/
theorem covered (i : S8192x2048.Idx) :
    ∃ t : Fin cfg0.N, (cfg0.win 2).flush t = true ∧ i ∈ ((cfg0.win 2).blk t).view.set := by
  have hr : (i 0).val < 8192 := idx2_lt0 i
  have hc : (i 1).val < 2048 := idx2_lt1 i
  have hN : cfg0.N = 512 := N_0
  have hlt : 32 * ((i 0).val / 512) + 31 < cfg0.N := by rw [hN]; omega
  have hi := result_index ⟨32 * ((i 0).val / 512) + 31, hlt⟩
  refine ⟨⟨32 * ((i 0).val / 512) + 31, hlt⟩, (flush0_2 _).mpr (by show (32 * ((i 0).val / 512) + 31) % 32 = 31; omega), ?_⟩
  rw [mem_block]
  intro a
  match a with
  | ⟨0, _⟩ =>
    show win0_2.index ⟨32 * ((i 0).val / 512) + 31, hlt⟩ 0 * 512 ≤ (i 0).val
      ∧ (i 0).val < win0_2.index ⟨32 * ((i 0).val / 512) + 31, hlt⟩ 0 * 512 + 512
    rw [hi.1]
    show (32 * ((i 0).val / 512) + 31) / 32 * 512 ≤ (i 0).val ∧ (i 0).val < (32 * ((i 0).val / 512) + 31) / 32 * 512 + 512
    omega
  | ⟨1, _⟩ =>
    show win0_2.index ⟨32 * ((i 0).val / 512) + 31, hlt⟩ 1 * 2048 ≤ (i 1).val
      ∧ (i 1).val < win0_2.index ⟨32 * ((i 0).val / 512) + 31, hlt⟩ 1 * 2048 + 2048
    rw [hi.2]; omega

/-- The result array after the run. -/
theorem final (c : Dev nD) : (dats m 0 c).arrAt 2 cfg0.N = retrieve (queries m c) (stored m c) :=
  (dats m 0 c).arrAt_eq_of_cover 2 (retrieve (queries m c) (stored m c)) (flushed_eq m c) covered

/-- The kernel's run: every execution ends with the result at the retrieval of the arguments, the arguments unchanged. -/
theorem run : θ_run defs (onTc (τ := τ) (main (F := Ideal))) ⟨m, fun _ => 0, ρ⟩ fun r => ∀ c : Dev nD,
      r.2.mem ((c : Thread nD τ).loc main_v0) = retrieve (queries m c) (stored m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.LibWeightedMean.lean ====
/-
  A weighted mean whose weights are normalised BEFORE the sum, against the same mean normalised after it, on the
  extended reals of the exact instance.

  For weights a and values x over any finite index type, Σ_p (a_p / T)·x_p = (Σ_p a_p·x_p) / T with T = Σ_p a_p,
  where "/" is the exact instance's division, PROVIDED every a_p and x_p is a real number and T ≠ 0: then both
  sides live in ℝ, where division by T is multiplication by 1/T and distributes over the sum. The hypotheses are
  needed: at T = 0 with all a_p = 0 the left side is Σ_p (0/0)·x_p and the right side 0/0, and 0/0 is the bottom
  element, so for x = 0 the left is 0 and the right is not.

  This is the step between a program that row-normalises a score matrix and then multiplies it with a value
  matrix (attention-like references) and one that accumulates the unnormalised product and the row totals and
  divides once at the end (streaming kernels). It imports the real-entries file of the same directory: copy both
  and change the import line to the new directory's path.
-/
import Idealize.ShloMosaic.PureOps.Ideal
import proofs.«128708_j67542655697591_2_alg».proof.Proof.LibRealEntries

noncomputable section

open scoped BigOperators

namespace Cert.LibWeightedMean

open Idealize.ShloMosaic RealEntries

/-- Normalising the weights first gives the same weighted mean, over the reals and off a zero total. -/
theorem mean_of_normalised {ι : Type*} [Fintype ι] (a x : ι → EReal)
    (ha : ∀ p, IsReal (a p)) (hx : ∀ p, IsReal (x p)) (hS : ∑ p, a p ≠ 0) :
    ∑ p, Ideal.div (a p) (∑ p', a p') * x p = Ideal.div (∑ p, a p * x p) (∑ p', a p') := by
  choose a' ha' using ha
  choose x' hx' using hx
  obtain rfl : a = fun p => ((a' p : ℝ) : EReal) := funext ha'
  obtain rfl : x = fun p => ((x' p : ℝ) : EReal) := funext hx'
  have hsum : (∑ p, ((a' p : ℝ) : EReal)) = ((∑ p, a' p : ℝ) : EReal) := coe_sum _ _
  rw [hsum] at hS ⊢
  have hS' : (∑ p, a' p : ℝ) ≠ 0 := fun h => hS (by rw [h]; rfl)
  simp only [Ideal.div_coe hS', ← EReal.coe_mul]
  rw [coe_sum, coe_sum, ← EReal.coe_mul]
  congr 1
  rw [Finset.sum_mul]
  exact Finset.sum_congr rfl fun p _ => by ring

end Cert.LibWeightedMean

end
-- ==== Proof.Reference.lean ====
/-
  The reference program's result, read stage by stage at an index, is the retrieval.

  Its stages are: the overlaps r(q,p) (a product contracting the last axis of both operands), the scores
  r², their row totals, the totals broadcast back over the row, the quotient score/total, and the product of
  that normalised score matrix with the stored rows. So its entry (q,n) is Σ_p (a(q,p)/T(q))·X(p,n): each
  weight divided by the total BEFORE the sum. When every entry of both arrays is a real number and no row
  total is zero this is the weighted mean (Σ_p a(q,p)·X(p,n))/T(q).
-/
import proofs.«128708_j67542655697591_2_alg».proof.Proof.Gen.ReferenceIdeal.Read
import proofs.«128708_j67542655697591_2_alg».proof.Proof.Retrieval
import proofs.«128708_j67542655697591_2_alg».proof.Proof.LibWeightedMean

noncomputable section

open scoped BigOperators

namespace Cert.ReferenceIdeal.RefValue

open Cert.ReferenceIdeal Cert.ReferenceIdeal.Read Idealize.ShloMosaic Idealize.ShloMosaic.ValueIdx
open Cert.Retrieval RealEntries

variable (x : FVec Ideal S16384x2048 .f32) (s : FVec Ideal S8192x2048 .f32)

/-- The first stage at (q,p) is the overlap of query q with stored row p. -/
theorem overlap_stage (q : Fin 8192) (p : Fin 16384) :
    val_main_v0 (F := Ideal) x s (ix2 q p) = overlap s x q p := by
  rw [val_main_v0_apply]
  exact Finset.sum_congr rfl fun k _ => congrArg₂ (· * ·)
    (congrArg s (funext fun a => Fin.ext (by match a with | ⟨0, _⟩ => rfl | ⟨1, _⟩ => rfl)))
    (congrArg x (funext fun a => Fin.ext (by match a with | ⟨0, _⟩ => rfl | ⟨1, _⟩ => rfl)))

/-- The second stage at (q,p) is the score. -/
theorem score_stage (q : Fin 8192) (p : Fin 16384) :
    val_main_v1 (F := Ideal) x s (ix2 q p) = score s x q p := by
  rw [val_main_v1_apply, overlap_stage]; rfl

/-- The row sums, started from the zero, are the totals. -/
theorem total_stage (q : Fin 8192) :
    val_main_v2 (F := Ideal) x s (ix1 q) = total s x q := by
  rw [val_main_v2_apply, val_main_cst_apply]
  show Ideal.ofBits .f32 0x00000000#32 + _ = _
  rw [Ideal.ofBits_zero_f32, zero_add]
  exact Finset.sum_congr rfl fun k _ =>
    (congrArg (val_main_v1 (F := Ideal) x s)
      (funext fun a => Fin.ext (by match a with | ⟨0, _⟩ => rfl | ⟨1, _⟩ => rfl))).trans (score_stage x s q k)

/-- The totals broadcast back over the row. -/
theorem spread_stage (q : Fin 8192) (p : Fin 16384) :
    val_main_v4 (F := Ideal) x s (ix2 q p) = total s x q := by
  rw [val_main_v4_apply, val_main_v3_apply]
  exact (congrArg (val_main_v2 (F := Ideal) x s)
    (funext fun a => Fin.ext (by match a with | ⟨0, _⟩ => rfl))).trans (total_stage x s q)

/-- The normalised score at (q,p). -/
theorem normalised_stage (q : Fin 8192) (p : Fin 16384) :
    val_main_v5 (F := Ideal) x s (ix2 q p) = Ideal.div (score s x q p) (total s x q) := by
  rw [val_main_v5_apply, score_stage, spread_stage]; rfl

theorem isReal_overlap (hx : ∀ i, IsReal (x i)) (hs : ∀ i, IsReal (s i)) (q : Fin 8192) (p : Fin 16384) :
    IsReal (overlap s x q p) :=
  IsReal.sum _ _ fun k _ => (hs _).mul (hx _)

theorem isReal_score (hx : ∀ i, IsReal (x i)) (hs : ∀ i, IsReal (s i)) (q : Fin 8192) (p : Fin 16384) :
    IsReal (score s x q p) :=
  (isReal_overlap x s hx hs q p).mul (isReal_overlap x s hx hs q p)

/-- Over real entries and nonzero totals the reference's result is the retrieval. -/
theorem result_eq (hx : ∀ i, IsReal (x i)) (hs : ∀ i, IsReal (s i)) (hT : ∀ q, total s x q ≠ 0) :
    val_main_v6 (F := Ideal) x s = retrieve s x := by
  funext i
  obtain ⟨q, n, rfl⟩ : ∃ (q : Fin 8192) (n : Fin 2048), i = ix2 q n := ⟨i 0, i 1, eq_ix2 i⟩
  rw [val_main_v6_apply]
  have e : ∀ p : Fin 16384,
      val_main_v5 (F := Ideal) x s (lidx_main_v6 (ix2 q n) p) * x (ridx_main_v6 (ix2 q n) p)
        = Ideal.div (score s x q p) (∑ p', score s x q p') * x (ix2 p n) := fun p => by
    rw [show lidx_main_v6 (ix2 q n) p = ix2 q p from
        funext fun a => Fin.ext (by match a with | ⟨0, _⟩ => rfl | ⟨1, _⟩ => rfl),
      show ridx_main_v6 (ix2 q n) p = ix2 p n from
        funext fun a => Fin.ext (by match a with | ⟨0, _⟩ => rfl | ⟨1, _⟩ => rfl),
      normalised_stage]
    rfl
  rw [Finset.sum_congr rfl fun p _ => e p]
  exact Cert.LibWeightedMean.mean_of_normalised (fun p => score s x q p) (fun p => x (ix2 p n))
    (fun p => isReal_score x s hx hs q p) (fun p => hx _) (hT q)

end Cert.ReferenceIdeal.RefValue

end
-- ==== Proof.Domain.lean ====
/-
  What the precondition says of the two arrays, on the extended reals. It is the conjunction of three
  all-quantified comparisons: |X| < +inf everywhere, |s| < +inf everywhere, and, for every query, the total
  score over the stored rows is not zero — computed with the very operations the reference uses for its
  divisor. An extended real whose absolute value is below +inf is a real number (at ±inf the absolute value
  is +inf), so the first two say every entry is real; the third is the nonzero total read through the
  reference's own stages.
-/
import proofs.«128708_j67542655697591_2_alg».proof.Proof.Gen.Pre_finite_inputs
import proofs.«128708_j67542655697591_2_alg».proof.Proof.Reference
import Idealize.ShloMosaic.Lib.ReduceAll

noncomputable section

open scoped BigOperators

namespace Cert.Domain

open Idealize.ShloMosaic Idealize.ShloMosaic.ValueIdx Cert.Retrieval RealEntries

instance : Subsingleton Cert.Pre_finite_inputs.S_.Idx := ⟨fun a b => funext fun d => d.elim0⟩

/-- The pattern of +inf denotes the top of the extended reals. -/
theorem top_word : Ideal.ofBits .f32 0x7F800000#32 = ⊤ := by simp [Ideal.ofBits, Ideal.ieee]

/-- An extended real whose absolute value is below +inf is a real number. -/
theorem isReal_of_abs_lt_top {v : EReal}
    (h : Ideal.cmp .olt (max v (-v)) (Ideal.ofBits .f32 0x7F800000#32) = 1#1) : IsReal v := by
  rw [top_word] at h
  have hlt : max v (-v) < ⊤ := by
    by_contra hn
    have e : Ideal.cmp .olt (max v (-v)) ⊤ = 0#1 := by
      show BitVec.ofBool (decide (max v (-v) < ⊤)) = 0#1
      rw [decide_eq_false hn]; rfl
    rw [e] at h
    exact absurd h (by decide)
  induction v using EReal.rec with
  | bot => simp at hlt
  | coe r => exact isReal_coe r
  | top => simp at hlt

/-- A "not equal" comparison that answers 1 compares different extended reals. -/
theorem ne_of_cmp_une {a b : EReal} (h : Ideal.cmp .une a b = 1#1) : a ≠ b := by
  intro hab
  have e : Ideal.cmp .une a b = 0#1 := by
    show BitVec.ofBool (decide (a ≠ b)) = 0#1
    rw [decide_eq_false (not_not.mpr hab)]; rfl
  rw [e] at h
  exact absurd h (by decide)

/-- The same at an index of two arrays compared elementwise, the second holding +inf there. -/
theorem isReal_of_abs_lt_elem {S : Shape} (x top : FVec Ideal S .f32) (i : S.Idx)
    (htop : top i = Ideal.ofBits .f32 0x7F800000#32) (h : cmpf .olt (Host.absf x) top i = 1#1) : IsReal (x i) := by
  have h' : Ideal.cmp .olt (max (x i) (-(x i))) (top i) = 1#1 := h
  rw [htop] at h'
  exact isReal_of_abs_lt_top h'

/-- Two arrays compared "not equal" elementwise differ wherever the comparison answers 1. -/
theorem ne_of_une_elem {S : Shape} (a b : FVec Ideal S .f32) (i : S.Idx) (h : cmpf .une a b i = 1#1) : a i ≠ b i :=
  ne_of_cmp_une h

/-- Under the precondition every entry of both arrays is a real number and no query's total score is zero. -/
theorem of_pre (x : FVec Ideal Cert.Pre_finite_inputs.S16384x2048 .f32) (s : FVec Ideal Cert.Pre_finite_inputs.S8192x2048 .f32)
    (h : Cert.Pre_finite_inputs.fn (F := Ideal) x s = fun _ => 1#1) :
    (∀ i, IsReal (x i)) ∧ (∀ i, IsReal (s i)) ∧ (∀ q, total s x q ≠ 0) := by
  have h0 := congrFun h ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun q => ?_⟩
  · exact isReal_of_abs_lt_elem x _ i (broadcastInDim_apply _ _ _ i ix0 (fun a => a.elim0))
      (Host.reduce_andi_all _ _ _ _ _ h1 i)
  · exact isReal_of_abs_lt_elem s _ i (broadcastInDim_apply _ _ _ i ix0 (fun a => a.elim0))
      (Host.reduce_andi_all _ _ _ _ _ h2 i)
  · have hne := ne_of_une_elem _ _ (ix1 q) (Host.reduce_andi_all _ _ _ _ _ h3 (ix1 q))
    intro hT
    refine hne (Eq.trans (b := total s x q) ?_ ?_)
    · exact Cert.ReferenceIdeal.RefValue.total_stage x s q
    · rw [hT]
      exact ((broadcastInDim_apply _ _ _ (ix1 q) ix0 (fun a => a.elim0)).trans Ideal.ofBits_zero_f32).symm

end Cert.Domain

end
-- ==== Proof.lean ====
/-
  The certificate of a retrieval kernel against its reference, on the extended reals.

  Both programs take stored rows X : [16384, 2048] and queries s : [8192, 2048]. With the overlap
  r(q,p) = Σ_k s(q,k)·X(p,k) and the score a(q,p) = r(q,p)², the kernel streams the stored rows tile by
  tile, accumulating Σ_p a(q,p)·X(p,n) and Σ_p a(q,p), and divides once at the end; the reference divides
  every score by the row total first and then sums. The two are the same weighted mean wherever the total is
  not zero and the entries are real numbers, by distributivity over ℝ. At a zero total they are not: the
  kernel gives 0/0 and the reference a sum of (0/0)·X(p,n), different extended reals (for X = 0 the second
  is 0). The precondition therefore says, beside finiteness, that every query's total score is nonzero —
  the domain of the reference's own quotient.

  The three frames are the generated ones (the reference's is its generated run with the result dropped);
  the idealization rewrote nothing; the value claim sets the kernel's run (its result array is the retrieval
  of its arguments, with no hypothesis) beside the reference's (its result is the retrieval under the
  precondition's two facts).
-/
import proofs.«128708_j67542655697591_2_alg».proof.Defs
import proofs.«128708_j67542655697591_2_alg».proof.Proof.Gen.Kernel
import proofs.«128708_j67542655697591_2_alg».proof.Proof.Gen.Kernel.Skeleton
import proofs.«128708_j67542655697591_2_alg».proof.Proof.Gen.Kernel.Launch
import proofs.«128708_j67542655697591_2_alg».proof.Proof.Gen.Kernel.Points
import proofs.«128708_j67542655697591_2_alg».proof.Proof.Gen.Kernel.Frame
import proofs.«128708_j67542655697591_2_alg».proof.Proof.Gen.KernelIdeal
import proofs.«128708_j67542655697591_2_alg».proof.Proof.Gen.KernelIdeal.Skeleton
import proofs.«128708_j67542655697591_2_alg».proof.Proof.Gen.KernelIdeal.Launch
import proofs.«128708_j67542655697591_2_alg».proof.Proof.Gen.KernelIdeal.Points
import proofs.«128708_j67542655697591_2_alg».proof.Proof.Gen.KernelIdeal.Frame
import proofs.«128708_j67542655697591_2_alg».proof.Proof.Gen.ReferenceIdeal
import proofs.«128708_j67542655697591_2_alg».proof.Proof.Gen.Pre_finite_inputs
import proofs.«128708_j67542655697591_2_alg».proof.Proof.Gen.KernelIdeal.Value
import proofs.«128708_j67542655697591_2_alg».proof.Proof.Gen.ReferenceIdeal.Run
import proofs.«128708_j67542655697591_2_alg».proof.Proof.Gen.ReferenceIdeal.Read
import Idealize.ShloMosaic.Adequacy
import Idealize.ShloMosaic.Init

import proofs.«128708_j67542655697591_2_alg».proof.Proof.Final
import proofs.«128708_j67542655697591_2_alg».proof.Proof.Reference
import proofs.«128708_j67542655697591_2_alg».proof.Proof.Domain

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the retrieval of the same arguments: the kernel's unconditionally, the reference's because under
    the precondition the entries are real and no total is zero. -/
theorem algebraic : Cert.algebraic_KernelIdeal_ReferenceIdeal := by
  intro m ρ m' ρ' hpre hagree
  refine ⟨fun c => Cert.Retrieval.retrieve (Cert.KernelIdeal.Accumulate.queries m c) (Cert.KernelIdeal.Accumulate.stored m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs, hT⟩ := Cert.Domain.of_pre _ _ (hpre c)
  rw [(hagree c).1, (hagree c).2]
  exact (Cert.ReferenceIdeal.Read.val_main_v6_eq _ _).trans (Cert.ReferenceIdeal.RefValue.result_eq _ _ hx hs hT)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
